-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512 : Shape := ⟨2, ![64, 512]⟩
abbrev S64x512x512 : Shape := ⟨3, ![64, 512, 512]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64x512x512 : S_.BroadcastsInDim S64x512x512 (![] : Fin 0 → Fin S64x512x512.rank)
  reducesTo_S64x512x512_S_d0_1_2 : S64x512x512.ReducesTo [0, 1, 2] S_

variable [Facts]

def fn {F : FTy → Type} [FloatOps F] (main_arg0 : FVec F S64x512x1024 .f32) (main_arg1 : FVec F S64x512 .f32) (main_arg2 : FVec F S64x512x512 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512x512 .f32 := Host.absf main_arg2
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  main_v13
-- ==== Kernel.lean ====
abbrev S64x512x1024 : Shape := ⟨3, ![64, 512, 1024]⟩
abbrev S64x512 : Shape := ⟨2, ![64, 512]⟩
abbrev S64x512x512 : Shape := ⟨3, ![64, 512, 512]⟩
abbrev S64x512x1 : Shape := ⟨3, ![64, 512, 1]⟩
abbrev S1x512x512 : Shape := ⟨3, ![1, 512, 512]⟩
abbrev S1x512x1 : Shape := ⟨3, ![1, 512, 1]⟩
abbrev S1x512x1024 : Shape := ⟨3, ![1, 512, 1024]⟩
abbrev S512x512 : Shape := ⟨2, ![512, 512]⟩
abbrev S512x1 : Shape := ⟨2, ![512, 1]⟩
abbrev S512x1024 : Shape := ⟨2, ![512, 1024]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S64x512x1024, .f32⟩
  | .hbm, ⟨1, _⟩ => ⟨S64x512, .f32⟩
  | .hbm, ⟨2, _⟩ => ⟨S64x512x512, .f32⟩
  | .hbm, ⟨3, _⟩ => ⟨S64x512x1, .f32⟩
  | .hbm, ⟨4, _⟩ => ⟨S64x512x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x1, .f32⟩
  | .local _ .vmem, ⟨3, _⟩ => ⟨S1x512x1, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x512_S64x512x1_0_1 : S64x512.BroadcastsInDim S64x512x1 (![0, 1] : Fin 2 → Fin S64x512x1.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  shapeCasts_S512x1024_S1x512x1024 : S512x1024.ShapeCasts S1x512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S64x512x1.size a
  hwx0_1 : ∀ i : grid0.Coords, EltTy.bits .f32 = 32 ∨ (Rect.block (s := S64x512x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S64x512x1024.size a
  hwx0_2 : ∀ i : grid0.Coords, EltTy.bits .f32 = 32 ∨ (Rect.block (s := S64x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg2) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512 : Shape := ⟨2, ![64, 512]⟩
abbrev S64x512x512 : Shape := ⟨3, ![64, 512, 512]⟩
abbrev S_ : Shape := ⟨0, ![]⟩
abbrev S64x512x1 : Shape := ⟨3, ![64, 512, 1]⟩

abbrev nBuf : Space → Nat
  | .hbm => 29
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512, .f32⟩
  | .hbm, ⟨2, _⟩ => ⟨S64x512x512, .f32⟩
  | .hbm, ⟨3, _⟩ => ⟨S_, .f32⟩
  | .hbm, ⟨4, _⟩ => ⟨S64x512, .f32⟩
  | .hbm, ⟨5, _⟩ => ⟨S_, .f32⟩
  | .hbm, ⟨6, _⟩ => ⟨S64x512, .f32⟩
  | .hbm, ⟨7, _⟩ => ⟨S64x512, .f32⟩
  | .hbm, ⟨8, _⟩ => ⟨S64x512x1, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512, .f32⟩
  | .hbm, ⟨14, _⟩ => ⟨S64x512x1, .f32⟩
  | .hbm, ⟨15, _⟩ => ⟨S64x512x512, .f32⟩
  | .hbm, ⟨16, _⟩ => ⟨S64x512x512, .f32⟩
  | .hbm, ⟨17, _⟩ => ⟨S64x512x1, .f32⟩
  | .hbm, ⟨18, _⟩ => ⟨S64x512x512, .f32⟩
  | .hbm, ⟨19, _⟩ => ⟨S64x512x512, .f32⟩
  | .hbm, ⟨20, _⟩ => ⟨S_, .f32⟩
  | .hbm, ⟨21, _⟩ => ⟨S64x512, .f32⟩
  | .hbm, ⟨22, _⟩ => ⟨S64x512x1, .f32⟩
  | .hbm, ⟨23, _⟩ => ⟨S_, .f32⟩
  | .hbm, ⟨24, _⟩ => ⟨S64x512x1, .f32⟩
  | .hbm, ⟨25, _⟩ => ⟨S64x512x1, .f32⟩
  | .hbm, ⟨26, _⟩ => ⟨S64x512x512, .f32⟩
  | .hbm, ⟨27, _⟩ => ⟨S64x512x512, .f32⟩
  | .hbm, ⟨28, _⟩ => ⟨S64x512x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S_S64x512x1 : S_.BroadcastsInDim S64x512x1 (![] : Fin 0 → Fin S64x512x1.rank)
  dot_S64x512x512_S64x512x1024_S64x512x1024_2_1_1_2_0_0_wf : DotDims.WF S64x512x512 S64x512x1024 S64x512x1024 [2] [1] [1] [2] [0] [0]

variable [Facts₀]

def dot_S64x512x512_S64x512x1024_S64x512x1024_2_1_1_2_0_0 : DotDims S64x512x512 S64x512x1024 S64x512x1024 where
  lhsContracting := [2]
  rhsContracting := [1]
  lhsNonContracting := [1]
  rhsNonContracting := [2]
  lhsBatch := [0]
  rhsBatch := [0]
  wf := dot_S64x512x512_S64x512x1024_S64x512x1024_2_1_1_2_0_0_wf

class Facts : Prop extends Facts₀ where

variable [Facts]
-- ==== Proof.Spec.lean ====
/-
  The function both programs compute, written once over the extended reals.

  For one batch `b` and one query row `r`, the row `a = attn[b, r, ·]` of attention scores is turned into weights in
  four steps: shift by the row's maximum and exponentiate (`expRow`), divide by the row's sum (`softmaxRow`: the stable
  softmax), multiply by the query row's mask value `μ = mask[b, r]` (`maskedRow`), and divide by the masked row's sum
  plus a fixed stabiliser (`weightRow`). The result at `(b, r, h)` is the weighted sum over the attended positions `j`
  of `sentence[b, j, h]` (`alignAt`).

  Nothing here is evaluated: the row maximum is a fold of `max` from the word that denotes `-∞`, the stabiliser is the
  f32 word both programs carry, and every operation is the exact one on the extended reals. Both programs compute
  this same term operation for operation, so no law that needs finiteness (distributivity, cancellation) is used.
-/
import Idealize.ShloMosaic.PureOps.Ideal
import Idealize.ShloMosaic.PureOps.Ideal.Laws
import Idealize.ShloMosaic.Lib.ValueIdx

noncomputable section

namespace Cert.SoftAlign

open Idealize.ShloMosaic Idealize.ShloMosaic.ValueIdx

/-- The value the row maximum starts from: what the f32 word of `-∞` denotes. -/
def negInf : EReal := Ideal.ofBits .f32 0xFF800000#32

/-- The stabiliser added to the renormalising sum: what the f32 word both programs carry denotes. -/
def eps : EReal := Ideal.ofBits .f32 0x29E12E13#32

/-- The maximum of a row of 512 scores, as the fold of `max` from `negInf` in any order. -/
def rowMax (a : Fin 512 → EReal) : EReal := (Finset.univ : Finset (Fin 512)).fold max negInf a

/-- A score shifted by its row's maximum, exponentiated. -/
def expRow (a : Fin 512 → EReal) (j : Fin 512) : EReal := Ideal.exp (a j - rowMax a)

/-- The stable softmax of a row: each shifted exponential over the row's sum of them. -/
def softmaxRow (a : Fin 512 → EReal) (j : Fin 512) : EReal := Ideal.div (expRow a j) (∑ k : Fin 512, expRow a k)

/-- The softmax row scaled by the query row's mask value `μ`. -/
def maskedRow (a : Fin 512 → EReal) (μ : EReal) (j : Fin 512) : EReal := softmaxRow a j * μ

/-- The masked row renormalised: each entry over the masked row's sum plus the stabiliser. -/
def weightRow (a : Fin 512 → EReal) (μ : EReal) (j : Fin 512) : EReal :=
  Ideal.div (maskedRow a μ j) ((∑ k : Fin 512, maskedRow a μ k) + eps)

abbrev SSent : Shape := ⟨3, ![64, 512, 1024]⟩
abbrev SMask : Shape := ⟨2, ![64, 512]⟩
abbrev SAttn : Shape := ⟨3, ![64, 512, 512]⟩

/-- The result at batch `b`, query row `r`, feature `h`: the weights of row `(b, r)` against column `h` of the
    batch's sentence matrix. -/
def alignAt (sent : SSent.Idx → EReal) (mask : SMask.Idx → EReal) (attn : SAttn.Idx → EReal)
    (b : Fin 64) (r : Fin 512) (h : Fin 1024) : EReal :=
  ∑ j : Fin 512, weightRow (fun k => attn (ix3 b r k)) (mask (ix2 b r)) j * sent (ix3 b j h)

/-- The whole result array as one function of the three argument arrays. -/
def align (sent : SSent.Idx → EReal) (mask : SMask.Idx → EReal) (attn : SAttn.Idx → EReal) : SSent.Idx → EReal :=
  fun i => alignAt sent mask attn (i 0) (i 1) (i 2)

theorem align_ix3 (sent : SSent.Idx → EReal) (mask : SMask.Idx → EReal) (attn : SAttn.Idx → EReal)
    (b : Fin 64) (r : Fin 512) (h : Fin 1024) : align sent mask attn (ix3 b r h) = alignAt sent mask attn b r h := rfl

/-- `-∞` is the bottom of the order: a maximum against it is the other operand. -/
theorem max_negInf (y : EReal) : max negInf y = y := by
  unfold negInf; simp [Ideal.ofBits, Ideal.ieee]

end Cert.SoftAlign

end
-- ==== Proof.RefValue.lean ====
/-
  The reference's result, stage by stage, is the specification.

  Each stage of the host program is read at explicit coordinates (batch `b`, query row `r`, attended position `k`):
  the row maximum (a fold of `max` from `-∞`, then one more `max` against `-∞`, which changes nothing), the shifted
  exponentials, their row sum from zero, the softmax quotient, the product with the mask value of row `(b, r)`, the
  masked row's sum from zero plus the stabiliser, the renormalising quotient, and last the contraction over `k` with
  the sentence matrix of batch `b`.
-/
import proofs.«172726_j27659589386627_1_alg».proof.Proof.Gen.ReferenceIdeal.Read
import proofs.«172726_j27659589386627_1_alg».proof.Proof.Spec

noncomputable section

namespace Cert.SoftAlign.Ref

open Cert.ReferenceIdeal Cert.ReferenceIdeal.Gen Cert.ReferenceIdeal.Read
open Idealize.ShloMosaic Idealize.ShloMosaic.ValueIdx Cert.SoftAlign

variable (x0 : (⟨S64x512x1024, .f32⟩ : BufTy).Contents (Elt Ideal))
variable (x1 : (⟨S64x512, .f32⟩ : BufTy).Contents (Elt Ideal))
variable (x2 : (⟨S64x512x512, .f32⟩ : BufTy).Contents (Elt Ideal))

/-- The scores of query row `(b, r)`. -/
abbrev row (b : Fin 64) (r : Fin 512) : Fin 512 → EReal := fun k => x2 (ix3 b r k)

/-- The host's maximum over the last axis, at `(b, r)`, is the row's maximum. -/
theorem v0_at (b : Fin 64) (r : Fin 512) : val_main_v0 (F := Ideal) x2 (ix2 b r) = rowMax (row x2 b r) := by
  have h : S64x512x512.Reduces [2] S64x512 := by decide
  unfold val_main_v0
  refine (Host.reduce_eq_fold_single (FloatOps.maximumf (F := Ideal) (φ := .f32)) (x2 : FVec Ideal S64x512x512 .f32)
    (val_main_cst (F := Ideal)) reducesTo_S64x512x512_S64x512_d2 h h_S_ (ix2 b r)).trans ?_
  have hf : ((x2 : FVec Ideal S64x512x512 .f32) ∘ h.lift (ix2 b r)) = row x2 b r :=
    funext fun k => congrArg x2 (by funext c; apply Fin.ext; fin_cases c <;> rfl)
  rw [hf]
  rfl

/-- One more maximum against `-∞` leaves it. -/
theorem v2_at (b : Fin 64) (r : Fin 512) : val_main_v2 (F := Ideal) x2 (ix2 b r) = rowMax (row x2 b r) := by
  rw [val_main_v2_apply, v0_at, val_main_v1_apply, val_main_cst_0_apply]
  exact max_negInf _

/-- Broadcast back along the last axis. -/
theorem v4_at (b : Fin 64) (r k : Fin 512) : val_main_v4 (F := Ideal) x2 (ix3 b r k) = rowMax (row x2 b r) := by
  rw [val_main_v4_apply, val_main_v3_apply,
    show idx_main_v3 (idx_main_v4 (ix3 b r k)) = ix2 b r from by funext a; apply Fin.ext; fin_cases a <;> rfl, v2_at]

/-- The shifted exponential. -/
theorem v6_at (b : Fin 64) (r k : Fin 512) : val_main_v6 (F := Ideal) x2 (ix3 b r k) = expRow (row x2 b r) k := by
  rw [val_main_v6_apply, val_main_v5_apply, v4_at]
  rfl

/-- The row's sum of them, from zero. -/
theorem v7_at (b : Fin 64) (r : Fin 512) :
    val_main_v7 (F := Ideal) x2 (ix2 b r) = ∑ k : Fin 512, expRow (row x2 b r) k := by
  rw [val_main_v7_apply, val_main_cst_1_apply]
  show Ideal.ofBits .f32 0x00000000#32 + _ = _
  rw [Ideal.ofBits_zero_f32, zero_add]
  refine Finset.sum_congr rfl fun k _ => ?_
  rw [show idx_main_v7 (ix2 b r) k = ix3 b r k from by funext a; apply Fin.ext; fin_cases a <;> rfl, v6_at]

/-- The softmax quotient. -/
theorem v10_at (b : Fin 64) (r k : Fin 512) :
    val_main_v10 (F := Ideal) x2 (ix3 b r k) = softmaxRow (row x2 b r) k := by
  rw [val_main_v10_apply, v6_at, val_main_v9_apply, val_main_v8_apply,
    show idx_main_v8 (idx_main_v9 (ix3 b r k)) = ix2 b r from by funext a; apply Fin.ext; fin_cases a <;> rfl, v7_at]
  rfl

/-- The mask value of the query row, broadcast along the last axis. -/
theorem v12_at (b : Fin 64) (r k : Fin 512) : val_main_v12 (F := Ideal) x1 (ix3 b r k) = x1 (ix2 b r) := by
  rw [val_main_v12_apply, val_main_v11_apply,
    show idx_main_v11 (idx_main_v12 (ix3 b r k)) = ix2 b r from by funext a; apply Fin.ext; fin_cases a <;> rfl]

/-- The masked softmax row. -/
theorem v13_at (b : Fin 64) (r k : Fin 512) :
    val_main_v13 (F := Ideal) x1 x2 (ix3 b r k) = maskedRow (row x2 b r) (x1 (ix2 b r)) k := by
  rw [val_main_v13_apply, v10_at, v12_at]
  rfl

/-- Its sum, from zero. -/
theorem v14_at (b : Fin 64) (r : Fin 512) :
    val_main_v14 (F := Ideal) x1 x2 (ix2 b r) = ∑ k : Fin 512, maskedRow (row x2 b r) (x1 (ix2 b r)) k := by
  rw [val_main_v14_apply, val_main_cst_2_apply]
  show Ideal.ofBits .f32 0x00000000#32 + _ = _
  rw [Ideal.ofBits_zero_f32, zero_add]
  refine Finset.sum_congr rfl fun k _ => ?_
  rw [show idx_main_v14 (ix2 b r) k = ix3 b r k from by funext a; apply Fin.ext; fin_cases a <;> rfl, v13_at]

/-- The renormalising denominator: that sum plus the stabiliser, broadcast along the last axis. -/
theorem v18_at (b : Fin 64) (r k : Fin 512) :
    val_main_v18 (F := Ideal) x1 x2 (ix3 b r k) = (∑ j : Fin 512, maskedRow (row x2 b r) (x1 (ix2 b r)) j) + eps := by
  rw [val_main_v18_apply, val_main_v17_apply, val_main_v15_apply, val_main_v16_apply, val_main_cst_3_apply,
    show idx_main_v15 (idx_main_v18 (ix3 b r k)) = ix2 b r from by funext a; apply Fin.ext; fin_cases a <;> rfl, v14_at]
  rfl

/-- The weights. -/
theorem v19_at (b : Fin 64) (r k : Fin 512) :
    val_main_v19 (F := Ideal) x1 x2 (ix3 b r k) = weightRow (row x2 b r) (x1 (ix2 b r)) k := by
  rw [val_main_v19_apply, v13_at, v18_at]
  rfl

/-- The reference's result array is the specification of its three arguments. -/
theorem result_eq : val_main_v20 (F := Ideal) x0 x1 x2 = align x0 x1 x2 := by
  funext i
  obtain ⟨b, r, h, rfl⟩ : ∃ (b : Fin 64) (r : Fin 512) (h : Fin 1024), i = ix3 b r h := ⟨i 0, i 1, i 2, eq_ix3 i⟩
  rw [val_main_v20_apply, align_ix3]
  unfold alignAt
  refine Finset.sum_congr rfl fun k _ => ?_
  rw [show lidx_main_v20 (ix3 b r h) k = ix3 b r k from by funext a; apply Fin.ext; fin_cases a <;> rfl,
    show ridx_main_v20 (ix3 b r h) k = ix3 b k h from by funext a; apply Fin.ext; fin_cases a <;> rfl, v19_at]

end Cert.SoftAlign.Ref

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.KernelRow.lean ====
/-
  One grid point of the kernel: what the body stores, read at an index.

  The body works on one batch: the `512 × 512` score block `A`, the mask column `M` (`512 × 1`) and the
  `512 × 1024` sentence block. Its arithmetic is four row-wise stages on `A` and `M` — the shifted exponentials, the
  softmax quotient, the product with the mask column, the renormalising quotient — each a pointwise operation against
  a row reduction kept as a column and broadcast back, followed by one matrix product with the sentence block into a
  zero accumulator. The stages are named here as functions of `A` and `M`, the stored payload is their composition
  (by unfolding), and each stage read at `(r, k)` is the specification's row function of row `r` of `A` and entry
  `r` of `M`. The change of float format on the way into the matrix product is the identity on the extended reals.
-/
import proofs.«172726_j27659589386627_1_alg».proof.Proof.Gen.KernelIdeal.Skeleton
import proofs.«172726_j27659589386627_1_alg».proof.Proof.Spec
import proofs.«172726_j27659589386627_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.SoftAlign.Ker

open Cert.KernelIdeal Cert.KernelIdeal.Gen
open Idealize.ShloMosaic Idealize.ShloMosaic.ValueIdx Cert.SoftAlign Cert.RowOps

/-! ## The four row-wise stages -/

/-- Each score minus its row's maximum, exponentiated. -/
def shifted (A : FVec Ideal S512x512 .f32) : FVec Ideal S512x512 .f32 :=
  exp (subf A (broadcastTo S512x512 (shapeCast S512x1 (multiReduction .maximumf [1] S512 A 0xFF800000#32
    reduces_S512x512_S512 (.inl rfl) rfl) shapeCasts_S512_S512x1) broadcasts_S512x1_S512x512))

/-- Each shifted exponential over its row's sum. -/
def softmaxed (A : FVec Ideal S512x512 .f32) : FVec Ideal S512x512 .f32 :=
  divf (shifted A) (broadcastTo S512x512 (shapeCast S512x1 (multiReduction .add [1] S512 (shifted A) 0x00000000#32
    reduces_S512x512_S512 (.inl rfl) rfl) shapeCasts_S512_S512x1) broadcasts_S512x1_S512x512)

/-- The softmax rows scaled by the mask column. -/
def masked (A : FVec Ideal S512x512 .f32) (M : FVec Ideal S512x1 .f32) : FVec Ideal S512x512 .f32 :=
  mulf (softmaxed A) (broadcastTo S512x512 M broadcasts_S512x1_S512x512)

/-- Each masked entry over its row's sum plus the stabiliser. -/
def weights (A : FVec Ideal S512x512 .f32) (M : FVec Ideal S512x1 .f32) : FVec Ideal S512x512 .f32 :=
  divf (masked A M) (broadcastTo S512x512 (addf (shapeCast S512x1 (multiReduction .add [1] S512 (masked A M) 0x00000000#32
    reduces_S512x512_S512 (.inl rfl) rfl) shapeCasts_S512_S512x1) (broadcast S512x1 (Scalar.ofBits .f32 0x29E12E13#32)))
    broadcasts_S512x1_S512x512)

/-- The stored payload is the matrix product of the weights of the score and mask blocks with the sentence block, each
    block with its leading unit axis dropped and the result with it put back. -/
theorem pay_eq (v0 : Vec Ideal S1x512x512 .f32) (v2 : Vec Ideal S1x512x1 .f32) (v4 : Vec Ideal S1x512x1024 .f32) :
    k0_pay1 (F := Ideal) v0 v2 v4
      = shapeCast S1x512x1024 (matmul dot_S512x512_S512x1024_S512x1024_1_0_0_1_n_n none
          (truncf .bf16 (weights (shapeCast S512x512 v0 shapeCasts_S1x512x512_S512x512)
            (shapeCast S512x1 v2 shapeCasts_S1x512x1_S512x1)) bitsLt_bf16_f32)
          (truncf .bf16 (shapeCast S512x1024 v4 shapeCasts_S1x512x1024_S512x1024) bitsLt_bf16_f32)
          (constant S512x1024 .f32 0x00000000#32)) shapeCasts_S512x1024_S1x512x1024 := rfl

/-! ## Each stage at an index -/

variable (A : FVec Ideal S512x512 .f32) (M : FVec Ideal S512x1 .f32)

theorem shifted_at (r k : Fin 512) : shifted A (ix2 r k) = expRow (fun j => A (ix2 r j)) k := by
  unfold shifted expRow
  show Ideal.exp (A (ix2 r k) - broadcastTo S512x512 _ _ (ix2 r k)) = _
  refine congrArg (fun x => Ideal.exp (A (ix2 r k) - x)) ?_
  refine (broadcastTo_a1_ab_apply _ _ r k).trans ?_
  refine (shapeCast_a_a1_apply _ _ r 0).trans ?_
  exact multiReduction_maximumf_row A _ _ _ _ r

theorem softmaxed_at (r k : Fin 512) : softmaxed A (ix2 r k) = softmaxRow (fun j => A (ix2 r j)) k := by
  unfold softmaxed softmaxRow
  show Ideal.div (shifted A (ix2 r k)) (broadcastTo S512x512 _ _ (ix2 r k)) = _
  refine congrArg₂ Ideal.div (shifted_at A r k) ?_
  refine (broadcastTo_a1_ab_apply _ _ r k).trans ?_
  refine (shapeCast_a_a1_apply _ _ r 0).trans ?_
  refine (multiReduction_add_row (shifted A) _ _ _ _ r).trans ?_
  exact Finset.sum_congr rfl fun j _ => shifted_at A r j

theorem masked_at (r k : Fin 512) :
    masked A M (ix2 r k) = maskedRow (fun j => A (ix2 r j)) (M (ix2 r (0 : Fin 1))) k := by
  unfold masked maskedRow
  show softmaxed A (ix2 r k) * broadcastTo S512x512 M _ (ix2 r k) = _
  exact congrArg₂ (· * ·) (softmaxed_at A r k) (broadcastTo_a1_ab_apply M _ r k)

theorem weights_at (r k : Fin 512) :
    weights A M (ix2 r k) = weightRow (fun j => A (ix2 r j)) (M (ix2 r (0 : Fin 1))) k := by
  unfold weights weightRow
  show Ideal.div (masked A M (ix2 r k)) (broadcastTo S512x512 _ _ (ix2 r k)) = _
  refine congrArg₂ Ideal.div (masked_at A M r k) ?_
  refine (broadcastTo_a1_ab_apply _ _ r k).trans ?_
  show shapeCast S512x1 _ _ (ix2 r (0 : Fin 1)) + eps = _
  refine congrArg (· + eps) ?_
  refine (shapeCast_a_a1_apply _ _ r 0).trans ?_
  refine (multiReduction_add_row (masked A M) _ _ _ _ r).trans ?_
  exact Finset.sum_congr rfl fun j _ => masked_at A M r j

/-! ## The matrix product at an index -/

/-- The left operand's row coordinate is the result's row, whatever the contracted position. -/
theorem lhs_row (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- The right operand's column coordinate is the result's column, whatever the contracted position. -/
theorem rhs_col (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- Into the zero accumulator the product at `(r, h)` is the sum over the contracted position `k` of the left
    operand's `(r, k)` times the right operand's `(k, h)`. -/
theorem matmul_at (L : FVec Ideal S512x512 .bf16) (R : FVec Ideal S512x1024 .bf16) (r : Fin 512) (h : Fin 1024) :
    matmul dot_S512x512_S512x1024_S512x1024_1_0_0_1_n_n none L R (constant S512x1024 .f32 0x00000000#32) (ix2 r h)
      = ∑ k : Fin 512, L (ix2 r k) * R (ix2 k h) := by
  refine (Ideal.matmul_constant_zero_apply dot_S512x512_S512x1024_S512x1024_1_0_0_1_n_n none L R (ix2 r h)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r h)
      ((contrEquiv1 dot_S512x512_S512x1024_S512x1024_1_0_0_1_n_n 512 rfl rfl).symm k) = ix2 r k :=
    funext fun a => Fin.ext (by
      match a with
      | ⟨0, _⟩ => exact lhs_row _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 r h)
      ((contrEquiv1 dot_S512x512_S512x1024_S512x1024_1_0_0_1_n_n 512 rfl rfl).symm k) = ix2 k h :=
    funext fun a => Fin.ext (by
      match a with
      | ⟨0, _⟩ => exact (dot_S512x512_S512x1024_S512x1024_1_0_0_1_n_n.rhsIdx_val_of_single rfl _ _).trans hk
      | ⟨1, _⟩ => exact rhs_col _ _)
  rw [el, er]

/-! ## The payload at an index -/

/-- What the body stores at `(u, r, h)` of its output block: the weights of row `r` of the score block, with entry
    `r` of the mask column, against column `h` of the sentence block. -/
theorem pay_at (v0 : Vec Ideal S1x512x512 .f32) (v2 : Vec Ideal S1x512x1 .f32) (v4 : Vec Ideal S1x512x1024 .f32)
    (u : Fin 1) (r : Fin 512) (h : Fin 1024) :
    k0_pay1 (F := Ideal) v0 v2 v4 (ix3 u r h)
      = ∑ j : Fin 512, weightRow (fun k => v0 (ix3 (0 : Fin 1) r k)) (v2 (ix3 (0 : Fin 1) r (0 : Fin 1))) j
          * v4 (ix3 (0 : Fin 1) j h) := by
  rw [pay_eq]
  refine (shapeCast_ab_1ab_apply _ _ u r h).trans ?_
  refine (matmul_at _ _ r h).trans ?_
  refine Finset.sum_congr rfl fun j _ => ?_
  show weights _ _ (ix2 r j) * shapeCast S512x1024 v4 _ (ix2 j h) = _
  refine congrArg₂ (· * ·) ?_ (shapeCast_1ab_ab_apply v4 _ j h)
  refine (weights_at _ _ r j).trans ?_
  exact congrArg₂ (fun a μ => weightRow a μ j) (funext fun k => shapeCast_1ab_ab_apply v0 _ r k)
    (shapeCast_1ab_ab_apply v2 _ r (0 : Fin 1))

end Cert.SoftAlign.Ker

end
-- ==== Proof.KernelValue.lean ====
/-
  The kernel's result array as one function of its three arguments.

  The grid has one point per batch. Point `t` is given block `t` of the score array (every row and column of batch
  `t`), block `t` of the mask column (the mask of batch `t`, one entry per query row, on a trailing unit axis: the
  mask argument broadcast along that axis before the call) and block `t` of the sentence array, and what the body
  stores is written back as block `t` of the result array. Read at `(u, r, h)` the stored block is the specification
  at `(t, r, h)` of the three arguments; the 64 blocks tile the result array; so after the run the array is the
  specification of the arguments.
-/
import proofs.«172726_j27659589386627_1_alg».proof.Proof.Gen.KernelIdeal.Value
import proofs.«172726_j27659589386627_1_alg».proof.Proof.KernelRow
import Idealize.ShloMosaic.Lib.StableHlo.Run
import Idealize.ShloMosaic.Lib.Pipeline.Value
import Idealize.ShloMosaic.Lib.ValueIdx

set_option maxRecDepth 16384

noncomputable section

namespace Cert.SoftAlign.KerValue

open Cert.KernelIdeal Cert.KernelIdeal.Gen
open Idealize.ShloMosaic Idealize.ShloMosaic.TcCoe Idealize.SL.Sem Idealize.ShloMosaic.ValueIdx Cert.SoftAlign
open Idealize.ShloMosaic.Pipeline (Dat)

variable (m : (ℓ : Loc nD τ sig) → Buf (Elt Ideal) ℓ) (ρ : Dev nD → PrngReg)

/-! ## The arrays the region finds -/

/-- The three argument arrays as launched. -/
abbrev sentArg (c : Dev nD) : S64x512x1024.Idx → EReal := m ((c : Thread nD τ).loc main_arg0)
abbrev maskArg (c : Dev nD) : S64x512.Idx → EReal := m ((c : Thread nD τ).loc main_arg1)
abbrev attnArg (c : Dev nD) : S64x512x512.Idx → EReal := m ((c : Thread nD τ).loc main_arg2)

/-- The mask column the region finds is the mask argument with a unit axis appended. -/
theorem col_eq (c : Dev nD) :
    (V m c main_v0 : S64x512x1.Idx → EReal)
      = broadcastInDim S64x512x1 ![0, 1] bcast_S64x512_S64x512x1_0_1 (maskArg m c) := by
  dsimp only [Gen.V, Gen.hostOps0]; after_results

/-- Its entry `(b, r, 0)` is the mask of row `(b, r)`. -/
theorem col_at (c : Dev nD) (b : Fin 64) (r : Fin 512) (z : Fin 1) :
    (V m c main_v0 : S64x512x1.Idx → EReal) (ix3 b r z) = maskArg m c (ix2 b r) := by
  rw [col_eq]
  exact broadcastInDim_apply _ _ _ _ (ix2 b r) (fun a => match a with
    | ⟨0, _⟩ => by show b.val = if (64 : Nat) = 1 then 0 else b.val; rw [if_neg (by decide)]
    | ⟨1, _⟩ => by show r.val = if (512 : Nat) = 1 then 0 else r.val; rw [if_neg (by decide)])

/-! ## Where each window's block sits -/

/-- A grid point as a batch number. -/
def batch (t : Fin cfg0.N) : Fin 64 := ⟨t.val, Nat.lt_of_lt_of_eq t.isLt N_0⟩

theorem batch_val (t : Fin cfg0.N) : (batch t).val = t.val := rfl

/-- Every window's block at point `t` is block `t` along the batch axis and block `0` along the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The score block at point `t` holds batch `t` of the score array. -/
theorem attn_blk (c : Dev nD) (t : Fin cfg0.N) (r k : Fin 512) :
    (iblk m c 0 t : Vec Ideal S1x512x512 .f32) (ix3 (0 : Fin 1) r k) = attnArg m c (ix3 (batch t) r k) := by
  obtain ⟨e0, e1, e2, -⟩ := idx_facts t
  unfold iblk
  rw [View.read_apply]
  show V m c main_arg2 _ = _
  rw [V_main_arg2]
  refine congrArg (attnArg m c) ?_
  funext a; apply Fin.ext
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 512 + 1 * k.val = k.val; omega

/-- The mask block at point `t` holds the mask of batch `t`. -/
theorem mask_blk (c : Dev nD) (t : Fin cfg0.N) (r : Fin 512) :
    (iblk m c 1 t : Vec Ideal S1x512x1 .f32) (ix3 (0 : Fin 1) r (0 : Fin 1)) = maskArg m c (ix2 (batch t) r) := by
  obtain ⟨-, -, -, e0, e1, e2, -⟩ := idx_facts t
  unfold iblk
  rw [View.read_apply]
  show (V m c main_v0 : S64x512x1.Idx → EReal) _ = _
  refine Eq.trans (congrArg (V m c main_v0 : S64x512x1.Idx → EReal) ?_) (col_at m c (batch t) r (0 : Fin 1))
  funext a; apply Fin.ext
  match a with
  | ⟨0, _⟩ => show win0_1.index t (0 : Fin 3) * 1 + 1 * 0 = t.val; omega
  | ⟨1, _⟩ => show win0_1.index t (1 : Fin 3) * 512 + 1 * r.val = r.val; omega
  | ⟨2, _⟩ => show win0_1.index t (2 : Fin 3) * 1 + 1 * 0 = 0; omega

/-- The sentence block at point `t` holds batch `t` of the sentence array. -/
theorem sent_blk (c : Dev nD) (t : Fin cfg0.N) (j : Fin 512) (h : Fin 1024) :
    (iblk m c 2 t : Vec Ideal S1x512x1024 .f32) (ix3 (0 : Fin 1) j h) = sentArg m c (ix3 (batch t) j h) := by
  obtain ⟨-, -, -, -, -, -, e0, e1, e2, -⟩ := idx_facts t
  unfold iblk
  rw [View.read_apply]
  show V m c main_arg0 _ = _
  rw [V_main_arg0]
  refine congrArg (sentArg m c) ?_
  funext a; apply Fin.ext
  match a with
  | ⟨0, _⟩ => show win0_2.index t (0 : Fin 3) * 1 + 1 * 0 = t.val; omega
  | ⟨1, _⟩ => show win0_2.index t (1 : Fin 3) * 512 + 1 * j.val = j.val; omega
  | ⟨2, _⟩ => show win0_2.index t (2 : Fin 3) * 1024 + 1 * h.val = h.val; omega

/-! ## What a point writes back -/

/-- The result array both programs are to end with: the specification of the three arguments. -/
abbrev result (c : Dev nD) : S64x512x1024.Idx → EReal := align (sentArg m c) (maskArg m c) (attnArg m c)

/-- What the body stores at point `t`, read at `(u, r, h)`, is the specification at batch `t`. -/
theorem stored_at (c : Dev nD) (t : Fin cfg0.N) (u : Fin 1) (r : Fin 512) (h : Fin 1024) :
    k0_pay1 (F := Ideal) (iblk m c 0 t) (iblk m c 1 t) (iblk m c 2 t) (ix3 u r h)
      = alignAt (sentArg m c) (maskArg m c) (attnArg m c) (batch t) r h := by
  refine (Ker.pay_at (iblk m c 0 t) (iblk m c 1 t) (iblk m c 2 t) u r h).trans ?_
  unfold alignAt
  refine Finset.sum_congr rfl fun j _ => ?_
  refine congrArg₂ (· * ·) ?_ (sent_blk m c t j h)
  exact congrArg₂ (fun a μ => weightRow a μ j) (funext fun k => attn_blk m c t r k) (mask_blk m c t r)

theorem hz : (![0, 0, 0] : Fin 3 → Nat) = fun _ => 0 := funext fun a => by fin_cases a <;> rfl

/-- An element `(u, r, h)` of the result block at point `t` sits at `(t, r, h)` of the result array. -/
theorem out_emb (t : Fin cfg0.N) (u : Fin 1) (r : Fin 512) (h : Fin 1024) :
    ((cfg0.win 3).blk t).view.emb (ix3 u r h : S1x512x1024.Idx) = (ix3 (batch t) r h : S64x512x1024.Idx) := by
  obtain ⟨-, -, -, -, -, -, -, -, -, e0, e1, e2⟩ := idx_facts t
  funext a; apply Fin.ext
  have hu : u.val = 0 := by omega
  match a with
  | ⟨0, _⟩ => show win0_3.index t (0 : Fin 3) * 1 + 1 * u.val = t.val; omega
  | ⟨1, _⟩ => show win0_3.index t (1 : Fin 3) * 512 + 1 * r.val = r.val; omega
  | ⟨2, _⟩ => show win0_3.index t (2 : Fin 3) * 1024 + 1 * h.val = h.val; omega

/-- An element of the block the body stores at point `t` is the specification at the element's place in the array. -/
theorem written_at (c : Dev nD) (t : Fin cfg0.N) (y : S1x512x1024.Idx) :
    k0_pay1 (F := Ideal) (iblk m c 0 t) (iblk m c 1 t) (iblk m c 2 t) y
      = result m c (((cfg0.win 3).blk t).view.emb y) := by
  obtain ⟨u, r, h, rfl⟩ : ∃ (u : Fin 1) (r : Fin 512) (h : Fin 1024), y = ix3 u r h := ⟨y 0, y 1, y 2, eq_ix3 y⟩
  exact (stored_at m c t u r h).trans
    ((align_ix3 _ _ _ (batch t) r h).symm.trans (congrArg (result m c) (out_emb t u r h).symm))

/-- What point `t` writes back is block `t` of the specification. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1x512x512) hz, View.ld_unit_zero (S := S1x512x1) hz,
    View.ld_unit_zero (S := S1x512x1024) hz]
  funext y
  exact written_at m c t y

/-! ## The blocks tile the result array -/

/-- An index of the result array is in point `t`'s block iff each coordinate is in the block's range on its axis. -/
theorem mem_blk (t : Fin cfg0.N) (i : S64x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v1).slice (win0_3.rect t)).set ↔ _
  rw [View.set_slice_whole, Rect.mem_set_unit]
  exact Iff.rfl

/-- Every index `(b, r, h)` of the result array is in the block of the point numbered `b`. -/
theorem cover (i : S64x512x1024.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1024 := (i 2).isLt
  have hN : cfg0.N = 64 := N_0
  let t : Fin cfg0.N := ⟨(i 0).val, by omega⟩
  obtain ⟨-, -, -, -, -, -, -, -, -, e0, e1, e2⟩ := idx_facts t
  have ht : t.val = (i 0).val := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- So the result array after the run is the specification of the three arguments. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program terminates with the result array at the specification of the
    arguments, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.SoftAlign.KerValue

end
-- ==== Proof.lean ====
/-
  Soft alignment: for every batch `b` and query row `r`, the row of attention scores is passed through a stable
  softmax (shift by the row's maximum, exponentiate, divide by the row's sum), scaled by the mask value of `(b, r)`,
  divided by its own sum plus a fixed stabiliser, and the resulting weights are contracted over the attended
  positions with the batch's sentence matrix.

  The kernel does this one batch per grid point — the row reductions kept as columns and broadcast back, the
  contraction a matrix product into a zero accumulator with its operands passed through a narrower float format,
  which on the extended reals is the identity — and writes each batch's `512 × 1024` block back to its place in the
  result array. The reference does it on whole arrays: reductions along the last axis, broadcasts, and one batched
  contraction. Read at an index `(b, r, h)` both are the same term of the three arguments, operation for operation
  (`Cert.SoftAlign.align`): the kernel's side is `Cert.SoftAlign.KerValue.run`, the reference's side is
  `Cert.SoftAlign.Ref.result_eq` over its run. No step moves a factor across a sum or cancels a quotient, so nothing
  here depends on the inputs being finite. The kernel's idealization rewrote no operation, so it is preserved
  trivially; each program's frame is its run with the result forgotten.
-/
import proofs.«172726_j27659589386627_1_alg».proof.Defs
import proofs.«172726_j27659589386627_1_alg».proof.Proof.Gen.Kernel
import proofs.«172726_j27659589386627_1_alg».proof.Proof.Gen.Kernel.Skeleton
import proofs.«172726_j27659589386627_1_alg».proof.Proof.Gen.Kernel.Launch
import proofs.«172726_j27659589386627_1_alg».proof.Proof.Gen.Kernel.Points
import proofs.«172726_j27659589386627_1_alg».proof.Proof.Gen.Kernel.Frame
import proofs.«172726_j27659589386627_1_alg».proof.Proof.Gen.KernelIdeal
import proofs.«172726_j27659589386627_1_alg».proof.Proof.Gen.KernelIdeal.Skeleton
import proofs.«172726_j27659589386627_1_alg».proof.Proof.Gen.KernelIdeal.Launch
import proofs.«172726_j27659589386627_1_alg».proof.Proof.Gen.KernelIdeal.Points
import proofs.«172726_j27659589386627_1_alg».proof.Proof.Gen.KernelIdeal.Frame
import proofs.«172726_j27659589386627_1_alg».proof.Proof.Gen.ReferenceIdeal
import proofs.«172726_j27659589386627_1_alg».proof.Proof.Gen.KernelIdeal.Value
import proofs.«172726_j27659589386627_1_alg».proof.Proof.Gen.ReferenceIdeal.Run
import proofs.«172726_j27659589386627_1_alg».proof.Proof.Gen.ReferenceIdeal.Read
import proofs.«172726_j27659589386627_1_alg».proof.Proof.Gen.Pre_finite_inputs
import proofs.«172726_j27659589386627_1_alg».proof.Proof.Spec
import proofs.«172726_j27659589386627_1_alg».proof.Proof.RefValue
import proofs.«172726_j27659589386627_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the three arguments, the kernel's result array and the reference's result both end
    at the specification of those arguments. -/
theorem algebraic : Cert.algebraic_KernelIdeal_ReferenceIdeal := by
  intro m ρ m' ρ' _ hagree
  refine ⟨_, Cert.SoftAlign.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.SoftAlign.Ref.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
